-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8388608x5 : Shape := ⟨2, ![8388608, 5]⟩
abbrev S5 : Shape := ⟨1, ![5]⟩
abbrev S5x5 : Shape := ⟨2, ![5, 5]⟩
abbrev S_ : Shape := ⟨0, ![]⟩

class Facts : Prop where
  bcast_S_S8388608x5 : S_.BroadcastsInDim S8388608x5 (![] : Fin 0 → Fin S8388608x5.rank)
  reducesTo_S8388608x5_S_d0_1 : S8388608x5.ReducesTo [0, 1] S_
  h_S_ : 0 < S_.numel
  bcast_S_S5 : S_.BroadcastsInDim S5 (![] : Fin 0 → Fin S5.rank)
  reducesTo_S5_S_d0 : S5.ReducesTo [0] S_
  bcast_S_S5x5 : S_.BroadcastsInDim S5x5 (![] : Fin 0 → Fin S5x5.rank)
  reducesTo_S5x5_S_d0_1 : S5x5.ReducesTo [0, 1] S_

variable [Facts]

def fn_part1 {F : FTy → Type} [FloatOps F] (main_arg4 : FVec F S5 .f32) (main_v13 : IVec S_ 1) (main_v16 : IVec S5x5 1) : IVec S_ 1 :=
  let main_c_5 : IVec S_ 1 := constantI S_ 1 1#1
  let main_v17 : IVec S_ 1 := (fun x v => Host.reduce IntOp.andi x v reducesTo_S5x5_S_d0_1 h_S_) main_v16 main_c_5
  let main_v18 : IVec S_ 1 := andi main_v13 main_v17
  let main_v19 : FVec F S5 .f32 := Host.absf main_arg4
  let main_cst_6 : FVec F S_ .f32 := constant S_ .f32 0x7F800000#32
  let main_v20 : FVec F S5 .f32 := broadcastInDim S5 ![] bcast_S_S5 main_cst_6
  let main_v21 : IVec S5 1 := cmpf .olt main_v19 main_v20
  let main_c_7 : IVec S_ 1 := constantI S_ 1 1#1
  let main_v22 : IVec S_ 1 := (fun x v => Host.reduce IntOp.andi x v reducesTo_S5_S_d0 h_S_) main_v21 main_c_7
  let main_v23 : IVec S_ 1 := andi main_v18 main_v22
  main_v23

def fn {F : FTy → Type} [FloatOps F] (main_arg0 : FVec F S8388608x5 .f32) (main_arg1 : FVec F S5 .f32) (main_arg2 : FVec F S5 .f32) (main_arg3 : FVec F S5x5 .f32) (main_arg4 : FVec F S5 .f32) : IVec S_ 1 :=
  let main_v0 : FVec F S8388608x5 .f32 := Host.absf main_arg0
  let main_cst : FVec F S_ .f32 := constant S_ .f32 0x7F800000#32
  let main_v1 : FVec F S8388608x5 .f32 := broadcastInDim S8388608x5 ![] bcast_S_S8388608x5 main_cst
  let main_v2 : IVec S8388608x5 1 := cmpf .olt main_v0 main_v1
  let main_c : IVec S_ 1 := constantI S_ 1 1#1
  let main_v3 : IVec S_ 1 := (fun x v => Host.reduce IntOp.andi x v reducesTo_S8388608x5_S_d0_1 h_S_) main_v2 main_c
  let main_v4 : FVec F S5 .f32 := Host.absf main_arg1
  let main_cst_0 : FVec F S_ .f32 := constant S_ .f32 0x7F800000#32
  let main_v5 : FVec F S5 .f32 := broadcastInDim S5 ![] bcast_S_S5 main_cst_0
  let main_v6 : IVec S5 1 := cmpf .olt main_v4 main_v5
  let main_c_1 : IVec S_ 1 := constantI S_ 1 1#1
  let main_v7 : IVec S_ 1 := (fun x v => Host.reduce IntOp.andi x v reducesTo_S5_S_d0 h_S_) main_v6 main_c_1
  let main_v8 : IVec S_ 1 := andi main_v3 main_v7
  let main_v9 : FVec F S5 .f32 := Host.absf main_arg2
  let main_cst_2 : FVec F S_ .f32 := constant S_ .f32 0x7F800000#32
  let main_v10 : FVec F S5 .f32 := broadcastInDim S5 ![] bcast_S_S5 main_cst_2
  let main_v11 : IVec S5 1 := cmpf .olt main_v9 main_v10
  let main_c_3 : IVec S_ 1 := constantI S_ 1 1#1
  let main_v12 : IVec S_ 1 := (fun x v => Host.reduce IntOp.andi x v reducesTo_S5_S_d0 h_S_) main_v11 main_c_3
  let main_v13 : IVec S_ 1 := andi main_v8 main_v12
  let main_v14 : FVec F S5x5 .f32 := Host.absf main_arg3
  let main_cst_4 : FVec F S_ .f32 := constant S_ .f32 0x7F800000#32
  let main_v15 : FVec F S5x5 .f32 := broadcastInDim S5x5 ![] bcast_S_S5x5 main_cst_4
  let main_v16 : IVec S5x5 1 := cmpf .olt main_v14 main_v15
  fn_part1 (F := F) main_arg4 main_v13 main_v16
-- ==== Kernel.lean ====
abbrev S8388608x5 : Shape := ⟨2, ![8388608, 5]⟩
abbrev S5 : Shape := ⟨1, ![5]⟩
abbrev S5x5 : Shape := ⟨2, ![5, 5]⟩
abbrev S5x8388608 : Shape := ⟨2, ![5, 8388608]⟩
abbrev S5x1 : Shape := ⟨2, ![5, 1]⟩
abbrev S5x65536 : Shape := ⟨2, ![5, 65536]⟩
abbrev S65536 : Shape := ⟨1, ![65536]⟩
abbrev S1x65536 : Shape := ⟨2, ![1, 65536]⟩

abbrev nBuf : Space → Nat
  | .hbm => 11
  | .vmem => 8
  | .smem => 0
  | _ => 0

abbrev bufTy : (tb : Table) → Fin (tcTables nBuf tb) → BufTy
  | .hbm, ⟨0, _⟩ => ⟨S8388608x5, .f32⟩
  | .hbm, ⟨1, _⟩ => ⟨S5, .f32⟩
  | .hbm, ⟨2, _⟩ => ⟨S5, .f32⟩
  | .hbm, ⟨3, _⟩ => ⟨S5x5, .f32⟩
  | .hbm, ⟨4, _⟩ => ⟨S5, .f32⟩
  | .hbm, ⟨5, _⟩ => ⟨S5x8388608, .f32⟩
  | .hbm, ⟨6, _⟩ => ⟨S5x1, .f32⟩
  | .hbm, ⟨7, _⟩ => ⟨S5x1, .f32⟩
  | .hbm, ⟨8, _⟩ => ⟨S5x1, .f32⟩
  | .hbm, ⟨9, _⟩ => ⟨S5x8388608, .f32⟩
  | .hbm, ⟨10, _⟩ => ⟨S8388608x5, .f32⟩
  | .local _ .vmem, ⟨0, _⟩ => ⟨S5x65536, .f32⟩
  | .local _ .vmem, ⟨1, _⟩ => ⟨S5x65536, .f32⟩
  | .local _ .vmem, ⟨2, _⟩ => ⟨S5x1, .f32⟩
  | .local _ .vmem, ⟨3, _⟩ => ⟨S5x1, .f32⟩
  | .local _ .vmem, ⟨4, _⟩ => ⟨S5x5, .f32⟩
  | .local _ .vmem, ⟨5, _⟩ => ⟨S5x1, .f32⟩
  | .local _ .vmem, ⟨6, _⟩ => ⟨S5x65536, .f32⟩
  | .local _ .vmem, ⟨7, _⟩ => ⟨S5x65536, .f32⟩
  | _, _ => ⟨S8388608x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S5x65536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S5x5 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S5x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5x65536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S8388608x5_S5x8388608_1_0 : S8388608x5.Transposes [1, 0] S5x8388608
  shapeCasts_S5_S5x1 : S5.ShapeCasts S5x1
  inb_S5x65536_S5x65536_0_0 : ∀ a, (![0, 0] : Fin 2 → Nat) a + S5x65536.size a ≤ S5x65536.size a
  h_S5x65536 : 0 < S5x65536.numel
  shapeCasts_S5x65536_S5x65536 : S5x65536.ShapeCasts S5x65536
  reduces_S5x65536_S65536 : S5x65536.Reduces [0] S65536
  shapeCasts_S65536_S1x65536 : S65536.ShapeCasts S1x65536
  broadcasts_S1x65536_S5x65536 : S1x65536.Broadcasts S5x65536
  inb_S5x1_S5x1_0_0 : ∀ a, (![0, 0] : Fin 2 → Nat) a + S5x1.size a ≤ S5x1.size a
  h_S5x1 : 0 < S5x1.numel
  shapeCasts_S5x1_S5x1 : S5x1.ShapeCasts S5x1
  broadcasts_S5x1_S5x65536 : S5x1.Broadcasts S5x65536
  bitsLt_bf16_f32 : FTy.bits .bf16 < FTy.bits .f32
  inb_S5x5_S5x5_0_0 : ∀ a, (![0, 0] : Fin 2 → Nat) a + S5x5.size a ≤ S5x5.size a
  h_S5x5 : 0 < S5x5.numel
  transposes_S5x8388608_S8388608x5_1_0 : S5x8388608.Transposes [1, 0] S8388608x5
  dot_S5x5_S5x65536_S5x65536_1_0_0_1_n_n_wf : DotDims.WF S5x5 S5x65536 S5x65536 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5x65536.size a ≤ S5x8388608.size a
  hwx0_0 : ∀ i : grid0.Coords, EltTy.bits .f32 = 32 ∨ (Rect.block (s := S5x8388608) S5x65536.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5x1.size a ≤ S5x1.size a
  hwx0_1 : ∀ i : grid0.Coords, EltTy.bits .f32 = 32 ∨ (Rect.block (s := S5x1) S5x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S5x1.size a ≤ S5x1.size a
  hwx0_2 : ∀ i : grid0.Coords, EltTy.bits .f32 = 32 ∨ (Rect.block (s := S5x1) S5x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S5x5.size a ≤ S5x5.size a
  hwx0_3 : ∀ i : grid0.Coords, EltTy.bits .f32 = 32 ∨ (Rect.block (s := S5x5) S5x5.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S5x1.size a ≤ S5x1.size a
  hwx0_4 : ∀ i : grid0.Coords, EltTy.bits .f32 = 32 ∨ (Rect.block (s := S5x1) S5x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5x65536.size a ≤ S5x8388608.size a
  hwx0_5 : ∀ i : grid0.Coords, EltTy.bits .f32 = 32 ∨ (Rect.block (s := S5x8388608) S5x65536.size (cc0_transform_5 i) (hinb0_5 i)).WholeWords (EltTy.packing .f32)

variable [Facts₀]

def dot_S5x5_S5x65536_S5x65536_1_0_0_1_n_n : DotDims S5x5 S5x65536 S5x65536 where
  lhsContracting := [1]
  rhsContracting := [0]
  lhsNonContracting := [0]
  rhsNonContracting := [1]
  lhsBatch := []
  rhsBatch := []
  wf := dot_S5x5_S5x65536_S5x65536_1_0_0_1_n_n_wf

abbrev win0_0 : Pipeline.Window sig grid0 :=
  Pipeline.Window.ofSpec (Memref.whole main_v0) S5x65536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S5x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S5x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S5x5.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S5x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S5x65536.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8388608x5 : Shape := ⟨2, ![8388608, 5]⟩
abbrev S5 : Shape := ⟨1, ![5]⟩
abbrev S5x5 : Shape := ⟨2, ![5, 5]⟩
abbrev S_ : Shape := ⟨0, ![]⟩
abbrev S8388608 : Shape := ⟨1, ![8388608]⟩
abbrev S8388608x1 : Shape := ⟨2, ![8388608, 1]⟩
abbrev S1x5 : Shape := ⟨2, ![1, 5]⟩

abbrev nBuf : Space → Nat
  | .hbm => 42
  | .vmem => 0
  | .smem => 0
  | _ => 0

abbrev bufTy : (tb : Table) → Fin (tcTables nBuf tb) → BufTy
  | .hbm, ⟨0, _⟩ => ⟨S8388608x5, .f32⟩
  | .hbm, ⟨1, _⟩ => ⟨S5, .f32⟩
  | .hbm, ⟨2, _⟩ => ⟨S5, .f32⟩
  | .hbm, ⟨3, _⟩ => ⟨S5x5, .f32⟩
  | .hbm, ⟨4, _⟩ => ⟨S5, .f32⟩
  | .hbm, ⟨5, _⟩ => ⟨S_, .f32⟩
  | .hbm, ⟨6, _⟩ => ⟨S8388608, .f32⟩
  | .hbm, ⟨7, _⟩ => ⟨S8388608x1, .f32⟩
  | .hbm, ⟨8, _⟩ => ⟨S_, .f32⟩
  | .hbm, ⟨9, _⟩ => ⟨S8388608x1, .f32⟩
  | .hbm, ⟨10, _⟩ => ⟨S8388608x1, .f32⟩
  | .hbm, ⟨11, _⟩ => ⟨S8388608x5, .f32⟩
  | .hbm, ⟨12, _⟩ => ⟨S8388608x5, .f32⟩
  | .hbm, ⟨13, _⟩ => ⟨S8388608x5, .f32⟩
  | .hbm, ⟨14, _⟩ => ⟨S_, .f32⟩
  | .hbm, ⟨15, _⟩ => ⟨S8388608, .f32⟩
  | .hbm, ⟨16, _⟩ => ⟨S8388608x1, .f32⟩
  | .hbm, ⟨17, _⟩ => ⟨S_, .f32⟩
  | .hbm, ⟨18, _⟩ => ⟨S8388608x1, .f32⟩
  | .hbm, ⟨19, _⟩ => ⟨S8388608x1, .f32⟩
  | .hbm, ⟨20, _⟩ => ⟨S8388608x5, .f32⟩
  | .hbm, ⟨21, _⟩ => ⟨S8388608x5, .f32⟩
  | .hbm, ⟨22, _⟩ => ⟨S_, .f32⟩
  | .hbm, ⟨23, _⟩ => ⟨S8388608x1, .f32⟩
  | .hbm, ⟨24, _⟩ => ⟨S8388608x1, .f32⟩
  | .hbm, ⟨25, _⟩ => ⟨S8388608x1, .f32⟩
  | .hbm, ⟨26, _⟩ => ⟨S8388608x5, .f32⟩
  | .hbm, ⟨27, _⟩ => ⟨S8388608x5, .f32⟩
  | .hbm, ⟨28, _⟩ => ⟨S1x5, .f32⟩
  | .hbm, ⟨29, _⟩ => ⟨S8388608x5, .f32⟩
  | .hbm, ⟨30, _⟩ => ⟨S8388608x5, .f32⟩
  | .hbm, ⟨31, _⟩ => ⟨S1x5, .f32⟩
  | .hbm, ⟨32, _⟩ => ⟨S8388608x5, .f32⟩
  | .hbm, ⟨33, _⟩ => ⟨S8388608x5, .f32⟩
  | .hbm, ⟨34, _⟩ => ⟨S5x5, .f32⟩
  | .hbm, ⟨35, _⟩ => ⟨S8388608x5, .f32⟩
  | .hbm, ⟨36, _⟩ => ⟨S1x5, .f32⟩
  | .hbm, ⟨37, _⟩ => ⟨S8388608x5, .f32⟩
  | .hbm, ⟨38, _⟩ => ⟨S8388608x5, .f32⟩
  | .hbm, ⟨39, _⟩ => ⟨S_, .f32⟩
  | .hbm, ⟨40, _⟩ => ⟨S8388608x5, .f32⟩
  | .hbm, ⟨41, _⟩ => ⟨S8388608x5, .f32⟩
  | _, _ => ⟨S8388608x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_call0_cst : Ref sig .tc := ⟨.hbm, 39, rfl⟩
abbrev main_call0_v0 : Ref sig .tc := ⟨.hbm, 40, rfl⟩
abbrev main_v29 : Ref sig .tc := ⟨.hbm, 41, rfl⟩

abbrev nD : Nat := 1
abbrev τ : Topo := Topo.v7x

variable {F : FTy → Type} [FloatOps F]

class Facts₀ : Prop where
  reducesTo_S8388608x5_S8388608_d1 : S8388608x5.ReducesTo [1] S8388608
  h_S_ : 0 < S_.numel
  bcast_S8388608_S8388608x1_0 : S8388608.BroadcastsInDim S8388608x1 (![0] : Fin 1 → Fin S8388608x1.rank)
  bcast_S_S8388608x1 : S_.BroadcastsInDim S8388608x1 (![] : Fin 0 → Fin S8388608x1.rank)
  bcast_S8388608x1_S8388608x5_0_1 : S8388608x1.BroadcastsInDim S8388608x5 (![0, 1] : Fin 2 → Fin S8388608x5.rank)
  bcast_S5_S1x5_1 : S5.BroadcastsInDim S1x5 (![1] : Fin 1 → Fin S1x5.rank)
  bcast_S1x5_S8388608x5_0_1 : S1x5.BroadcastsInDim S8388608x5 (![0, 1] : Fin 2 → Fin S8388608x5.rank)
  transposes_S5x5_S5x5_1_0 : S5x5.Transposes [1, 0] S5x5
  bcast_S_S8388608x5 : S_.BroadcastsInDim S8388608x5 (![] : Fin 0 → Fin S8388608x5.rank)
  dot_S8388608x5_S5x5_S8388608x5_1_0_0_1_n_n_wf : DotDims.WF S8388608x5 S5x5 S8388608x5 [1] [0] [0] [1] [] []

variable [Facts₀]

def dot_S8388608x5_S5x5_S8388608x5_1_0_0_1_n_n : DotDims S8388608x5 S5x5 S8388608x5 where
  lhsContracting := [1]
  rhsContracting := [0]
  lhsNonContracting := [0]
  rhsNonContracting := [1]
  lhsBatch := []
  rhsBatch := []
  wf := dot_S8388608x5_S5x5_S8388608x5_1_0_0_1_n_n_wf

class Facts : Prop extends Facts₀ where

variable [Facts]
-- ==== Proof.Spec.lean ====
/-
  Layer normalization of each row of an N×5 array over its five entries, followed by a 5×5 affine map and a clamp at
  zero, written as one function on the extended reals.

  For a row r = (r 0, …, r 4): the mean is (Σ r d) / 5, the centered entries are r d − mean, the variance is
  (Σ (r d − mean)²) / 5 (the biased one), the scale is (variance + ε)^(−1/2), the normalized entries are
  (r d − mean) · scale · γ d + β d, and output entry j is max (Σ_k normalized k · W j k + b j, 0).
  Division and the inverse square root are the extended reals' conventions of the ideal instance; the three literals
  (5, ε, 0) stay the words both programs print, so neither is ever evaluated.
-/
import Idealize.ShloMosaic.PureOps.Ideal
import Idealize.ShloMosaic.Lib.ValueIdx

noncomputable section

open scoped BigOperators

namespace Cert.NormAffine

open Idealize.ShloMosaic Idealize.ShloMosaic.ValueIdx

/-- The number of entries of a row, as the float both programs divide by. -/
abbrev five : EReal := Ideal.ofBits .f32 0x40A00000#32
/-- The offset added to the variance (the float nearest 1e-5). -/
abbrev eps : EReal := Ideal.ofBits .f32 0x3727C5AC#32
/-- The clamp's floor, the zero word. -/
abbrev floor0 : EReal := Ideal.ofBits .f32 0x00000000#32

/-- A row's mean. -/
def mean (r : Fin 5 → EReal) : EReal := Ideal.div (∑ d : Fin 5, r d) five

/-- A row's entries with the mean taken off. -/
def centered (r : Fin 5 → EReal) (d : Fin 5) : EReal := r d - mean r

/-- A row's biased variance: the mean of the squared centered entries. -/
def variance (r : Fin 5 → EReal) : EReal := Ideal.div (∑ d : Fin 5, centered r d * centered r d) five

/-- The factor that normalizes a row: the inverse square root of the variance plus ε. -/
def scale (r : Fin 5 → EReal) : EReal := Ideal.rsqrt (variance r + eps)

/-- The normalized row, with the per-feature gain γ and shift β. -/
def normed (r γ β : Fin 5 → EReal) (d : Fin 5) : EReal := centered r d * scale r * γ d + β d

/-- Output entry `j` of a row: the normalized row against row `j` of `W`, plus `b j`, clamped at zero. -/
def outRow (r γ β : Fin 5 → EReal) (W : Fin 5 → Fin 5 → EReal) (b : Fin 5 → EReal) (j : Fin 5) : EReal :=
  max ((∑ k : Fin 5, normed r γ β k * W j k) + b j) floor0

/-- The whole result: entry `(n, j)` is output entry `j` of row `n` of `x`. -/
def result (x : (⟨2, ![8388608, 5]⟩ : Shape).Idx → EReal) (γ β : (⟨1, ![5]⟩ : Shape).Idx → EReal)
    (W : (⟨2, ![5, 5]⟩ : Shape).Idx → EReal) (b : (⟨1, ![5]⟩ : Shape).Idx → EReal) :
    (⟨2, ![8388608, 5]⟩ : Shape).Idx → EReal :=
  fun i => outRow (fun d => x (ix2 (i 0) d)) (fun d => γ (ix1 d)) (fun d => β (ix1 d)) (fun j k => W (ix2 j k))
    (fun d => b (ix1 d)) (i 1)

/-- The result read at coordinates. -/
theorem result_apply (x : (⟨2, ![8388608, 5]⟩ : Shape).Idx → EReal) (γ β : (⟨1, ![5]⟩ : Shape).Idx → EReal)
    (W : (⟨2, ![5, 5]⟩ : Shape).Idx → EReal) (b : (⟨1, ![5]⟩ : Shape).Idx → EReal) (n : Fin 8388608) (j : Fin 5) :
    result x γ β W b (ix2 n j) = outRow (fun d => x (ix2 n d)) (fun d => γ (ix1 d)) (fun d => β (ix1 d))
      (fun j k => W (ix2 j k)) (fun d => b (ix1 d)) j := rfl

end Cert.NormAffine

end
-- ==== Proof.LibKeepdims.lean ====
/-
  A row reduction kept as a column (`keepdims`), read by coordinates.

  A lane sum of an `[a, b]` array is, at row `p`, the sum over the lane coordinate `k` of the entry `(p, k)`.
  The sum is then re-laid: cast from `[a]` to the column `[a, 1]` (entry `(i, 0)` is entry `i`), and the column
  broadcast along its unit axis to `[a, b]` (entry `(p, c)` is the column's entry `(p, 0)`). Each lemma states one of
  these three readings at an index written by its coordinates, for any extents.
-/
import Idealize.ShloMosaic.Lib.Pipeline.Value
import Idealize.ShloMosaic.Lib.ValueIdx
import Idealize.ShloMosaic.PureOps.Ideal.Laws

namespace Cert.Keepdims

open Idealize.ShloMosaic Idealize.ShloMosaic.ValueIdx

variable {α : Type}

/-- An `[a]` array cast to the column `[a, 1]` reads, at `(i, u)`, the operand at `i`: both indices have row-major
    position `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast along its unit axis to `[a, b]` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A float lane sum of an `[a, b]` array from the zero pattern, read at row `p`, is the sum over the lane coordinate
    `k` of the entry `(p, k)`: on the extended reals the sum has no order and the zero it starts from adds nothing. -/
theorem laneSum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ k : Fin b, src (ix2 p k) := by
  refine (Ideal.multiReduction_add_single src _ h hφ hacc (ix1 p)).trans ?_
  refine Finset.sum_congr rfl fun k _ => congrArg src ?_
  funext d
  apply Fin.ext
  match d with
  | ⟨0, _⟩ => rfl
  | ⟨1, _⟩ => rfl

end Cert.Keepdims
-- ==== Proof.LibPlainDot.lean ====
/-
  A plain matrix product read at an index, on the extended reals.

  For the dimension numbers of an M×K by K×N product (contract the left operand's axis 1 with the right operand's
  axis 0, no batch axis), the product at row `r`, column `n` is the sum over the K contraction positions of
  `l (r, k) · r' (k, n)`. The contraction index of the dimension record is a one-coordinate index; it is re-indexed by
  that coordinate, and the operand indices at an output index and a contraction position are read off coordinate by
  coordinate. Stated for a kernel's matrix unit accumulating into the zero splat and for a host `dot_general`.
-/
import Idealize.ShloMosaic.PureOps.Ideal
import Idealize.ShloMosaic.PureOps.Ideal.Laws
import Idealize.ShloMosaic.Lib.ValueIdx

noncomputable section

namespace Cert.LibPlainDot

open Idealize.ShloMosaic Idealize.ShloMosaic.ValueIdx

variable (M K N : Nat)

/-- The contraction shape of a plain product has one axis, -/
theorem contr_rank : (DotDims.plain M K N).contr.rank = 1 := rfl

/-- of extent K. -/
theorem contr_size : (DotDims.plain M K N).contr.size ⟨0, by rw [contr_rank]; exact Nat.one_pos⟩ = K := rfl

/-- The left operand's index at output index `j` and contraction position `k` is (row of `j`, `k`). -/
theorem lhsIdx_eq (j : (⟨2, ![M, N]⟩ : Shape).Idx) (k : Fin K) :
    (DotDims.plain M K N).lhsIdx j ((contrEquiv1 (DotDims.plain M K N) K (contr_rank M K N) (contr_size M K N)).symm k)
      = ix2 (j 0) k := by
  funext a
  apply Fin.ext
  match a with
  | ⟨0, _⟩ => rfl
  | ⟨1, _⟩ =>
    exact ((DotDims.plain M K N).lhsIdx_val_of_single (cl := 1) rfl j _).trans
      (contrEquiv1_symm_val (DotDims.plain M K N) K (contr_rank M K N) (contr_size M K N) k)

/-- The right operand's index at output index `j` and contraction position `k` is (`k`, column of `j`). -/
theorem rhsIdx_eq (j : (⟨2, ![M, N]⟩ : Shape).Idx) (k : Fin K) :
    (DotDims.plain M K N).rhsIdx j ((contrEquiv1 (DotDims.plain M K N) K (contr_rank M K N) (contr_size M K N)).symm k)
      = ix2 k (j 1) := by
  funext a
  apply Fin.ext
  match a with
  | ⟨0, _⟩ =>
    exact ((DotDims.plain M K N).rhsIdx_val_of_single (cr := 0) rfl j _).trans
      (contrEquiv1_symm_val (DotDims.plain M K N) K (contr_rank M K N) (contr_size M K N) k)
  | ⟨1, _⟩ => rfl

/-- The sum over the record's contraction index is the sum over the K positions. -/
theorem sum_contr (l : (⟨2, ![M, K]⟩ : Shape).Idx → EReal) (r : (⟨2, ![K, N]⟩ : Shape).Idx → EReal)
    (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K (contr_rank M K N) (contr_size M K N)).symm]
  exact Finset.sum_congr rfl fun k _ =>
    congrArg₂ (fun a b => l a * r b) (lhsIdx_eq M K N j k) (rhsIdx_eq M K N j k)

/-- A kernel's matrix unit accumulating into the zero splat, at an index: the plain sum of products. -/
theorem matmul_zero_apply {φ₁ φ₂ : FTy} (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_contr M K N l r j)

/-- A host `dot_general` at an index: the same sum, whatever the precision and schedule keys. -/
theorem dotGeneral_apply {φ₁ φ₂ : FTy} (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j
      = ∑ k : Fin K, l (ix2 (j 0) k) * r (ix2 k (j 1)) :=
  (Ideal.dotGeneral_apply (DotDims.plain M K N) prec sched l r j).trans (sum_contr M K N l r j)

end Cert.LibPlainDot

end
-- ==== Proof.LibSublaneSum.lean ====
/-
  A column sum of a matrix, read by coordinates.

  A float sum of an `[a, b]` array over its first axis, started from the zero pattern, is at column `c` the sum over the
  row coordinate `k` of the entry `(k, c)`: on the extended reals a sum has no order, and the zero it starts from adds
  nothing. Stated for any extents; the companion of the lane sum (the sum over the second axis).
-/
import Idealize.ShloMosaic.Lib.Pipeline.Value
import Idealize.ShloMosaic.Lib.ValueIdx
import Idealize.ShloMosaic.PureOps.Ideal.Laws

namespace Cert.SublaneSum

open Idealize.ShloMosaic Idealize.ShloMosaic.ValueIdx

/-- A float sum of an `[a, b]` array over axis 0 from the zero pattern, read at column `c`, is the sum over the row
    coordinate `k` of the entry `(k, c)`. -/
theorem sublaneSum_apply {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = FKind.add.neutral .f32 hφ) (c : Fin b) :
    multiReduction .add [0] ⟨1, ![b]⟩ src 0x00000000#32 h hφ hacc (ix1 c) = ∑ k : Fin a, src (ix2 k c) := by
  refine (Ideal.multiReduction_add_single src _ h hφ hacc (ix1 c)).trans ?_
  refine Finset.sum_congr rfl fun k _ => congrArg src ?_
  funext d
  apply Fin.ext
  match d with
  | ⟨0, _⟩ => rfl
  | ⟨1, _⟩ => rfl

end Cert.SublaneSum
-- ==== Proof.KernelPoint.lean ====
/-
  What the kernel's body stores, entry by entry.

  The body works on a 5×65536 block of the transposed input: features on the rows, 65536 array rows on the columns. A
  column's sum over the five rows divided by 5 is laid back over the rows and taken off; the squares' column sum divided
  by 5, plus ε, goes through the inverse square root and is laid back over the rows; the centered entries are scaled,
  multiplied by the gain column, shifted by the shift column (both broadcast along the columns); the 5×5 weights are
  multiplied onto the block, so entry `(j, q)` sums `W j k · h k q`; the bias column is added and the result
  clamped at zero. At the ideal instance the narrowing to bf16 before the product is the identity. So entry `(j, q)` of the
  stored block is the specification's output entry `j` of column `q` read as a row — the product's factors swapped,
  which the extended reals' multiplication allows.
-/
import proofs.«122403_j22411139350828_2_alg».proof.Proof.Gen.KernelIdeal.Skeleton
import proofs.«122403_j22411139350828_2_alg».proof.Proof.Spec
import proofs.«122403_j22411139350828_2_alg».proof.Proof.LibKeepdims
import proofs.«122403_j22411139350828_2_alg».proof.Proof.LibPlainDot
import proofs.«122403_j22411139350828_2_alg».proof.Proof.LibSublaneSum
import Idealize.ShloMosaic.Lib.ValueLayout
import Idealize.ShloMosaic.Lib.Pipeline.Value

noncomputable section

open scoped BigOperators

namespace Cert.KernelIdeal.Point

open Cert.KernelIdeal Cert.KernelIdeal.Gen Cert.NormAffine
open Idealize.ShloMosaic Idealize.ShloMosaic.ValueIdx

/-- A column's sum over the five rows, divided by 5, laid back over the rows. -/
theorem colAvg_apply (v : FVec Ideal S5x65536 .f32) (d : Fin 5) (q : Fin 65536) :
    broadcastTo S5x65536 (divf (shapeCast S1x65536 (multiReduction .add [0] S65536 v 0x00000000#32
        reduces_S5x65536_S65536 (.inl rfl) rfl) shapeCasts_S65536_S1x65536)
      (broadcast S1x65536 (Scalar.ofBits (F := Ideal) .f32 0x40A00000#32))) broadcasts_S1x65536_S5x65536 (ix2 d q)
      = Ideal.div (∑ k : Fin 5, v (ix2 k q)) five := by
  refine (broadcastTo_1b_ab_apply _ _ d q).trans ?_
  rw [divf_apply]
  refine congrArg₂ Ideal.div ?_ rfl
  refine (shapeCast_a_1a_apply _ _ (0 : Fin 1) q).trans ?_
  exact Cert.SublaneSum.sublaneSum_apply v _ _ _ q

/-- A 5×1 column laid over the 65536 columns reads its row's one entry. -/
theorem colBcast_apply (v : Vec Ideal S5x1 .f32) (d : Fin 5) (q : Fin 65536) :
    broadcastTo S5x65536 v broadcasts_S5x1_S5x65536 (ix2 d q) = v (ix2 d (0 : Fin 1)) :=
  Cert.Keepdims.broadcastTo_a1_ab_apply _ _ d q

/-- The 5×5 by 5×65536 product into the zero block, at an entry: the sum over the five contraction positions. -/
theorem prod_apply (w : FVec Ideal S5x5 .bf16) (h : FVec Ideal S5x65536 .bf16) (j : Fin 5) (q : Fin 65536) :
    matmul dot_S5x5_S5x65536_S5x65536_1_0_0_1_n_n none w h (constant S5x65536 .f32 0x00000000#32) (ix2 j q)
      = ∑ k : Fin 5, w (ix2 j k) * h (ix2 k q) :=
  Cert.LibPlainDot.matmul_zero_apply 5 5 65536 none w h (ix2 j q)

/-- The entries of a block with their column's mean taken off. -/
theorem centered_apply (v : FVec Ideal S5x65536 .f32) (d : Fin 5) (q : Fin 65536) :
    subf v (broadcastTo S5x65536 (divf (shapeCast S1x65536 (multiReduction .add [0] S65536 v 0x00000000#32
        reduces_S5x65536_S65536 (.inl rfl) rfl) shapeCasts_S65536_S1x65536)
      (broadcast S1x65536 (Scalar.ofBits (F := Ideal) .f32 0x40A00000#32))) broadcasts_S1x65536_S5x65536) (ix2 d q)
      = centered (fun d => v (ix2 d q)) d := by
  rw [subf_apply, colAvg_apply]
  rfl

/-- The inverse square root of a column's average plus ε, laid back over the rows. -/
theorem colScale_apply (v : FVec Ideal S5x65536 .f32) (d : Fin 5) (q : Fin 65536) :
    broadcastTo S5x65536 (rsqrt (addf (divf (shapeCast S1x65536 (multiReduction .add [0] S65536 v 0x00000000#32
        reduces_S5x65536_S65536 (.inl rfl) rfl) shapeCasts_S65536_S1x65536)
      (broadcast S1x65536 (Scalar.ofBits (F := Ideal) .f32 0x40A00000#32)))
      (broadcast S1x65536 (Scalar.ofBits (F := Ideal) .f32 0x3727C5AC#32)))) broadcasts_S1x65536_S5x65536 (ix2 d q)
      = Ideal.rsqrt (Ideal.div (∑ k : Fin 5, v (ix2 k q)) five + eps) := by
  refine (broadcastTo_1b_ab_apply _ _ d q).trans ?_
  show Ideal.rsqrt (Ideal.div (shapeCast S1x65536 (multiReduction .add [0] S65536 v 0x00000000#32
        reduces_S5x65536_S65536 (.inl rfl) rfl) shapeCasts_S65536_S1x65536 (ix2 (0 : Fin 1) q)) five + eps) = _
  refine congrArg (fun s => Ideal.rsqrt (Ideal.div s five + eps)) ?_
  refine (shapeCast_a_1a_apply _ _ (0 : Fin 1) q).trans ?_
  exact Cert.SublaneSum.sublaneSum_apply v _ _ _ q

/-- THE STORED BLOCK at entry `(j, q)`: the specification's output entry `j` of column `q` of the input block, with
    the gain, shift and bias columns read at their rows. -/
theorem pay_apply (x0 : Vec Ideal S5x65536 .f32) (x1 x2 : Vec Ideal S5x1 .f32) (x3 : Vec Ideal S5x5 .f32)
    (x4 : Vec Ideal S5x1 .f32) (j : Fin 5) (q : Fin 65536) :
    k0_pay1 x0 x1 x2 x3 x4 (ix2 j q)
      = outRow (fun d => x0 (ix2 d q)) (fun d => x1 (ix2 d (0 : Fin 1))) (fun d => x2 (ix2 d (0 : Fin 1)))
          (fun j k => x3 (ix2 j k)) (fun d => x4 (ix2 d (0 : Fin 1))) j := by
  unfold k0_pay1
  -- the casts of a block to its own shape are the identity
  simp only [shapeCast_self]
  rw [maximumf_apply, addf_apply, prod_apply, colBcast_apply, broadcast_apply]
  unfold outRow
  refine congrArg₂ max (congrArg₂ (· + ·) (Finset.sum_congr rfl fun k _ => ?_) rfl) rfl
  -- one term of the contraction: the weight times the normalized entry, the factors swapped
  refine (mul_comm _ _).trans (congrArg₂ (· * ·) ?_ rfl)
  rw [truncf_apply, addf_apply, mulf_apply, mulf_apply, colBcast_apply, colBcast_apply, centered_apply,
    colScale_apply]
  unfold normed scale variance
  beta_reduce
  refine congrArg (fun s => centered (fun d => x0 (ix2 d q)) k * Ideal.rsqrt (Ideal.div s five + eps)
    * x1 (ix2 k (0 : Fin 1)) + x2 (ix2 k (0 : Fin 1))) (Finset.sum_congr rfl fun d _ => ?_)
  rw [mulf_apply, centered_apply]

end Cert.KernelIdeal.Point

end
-- ==== Proof.KernelArray.lean ====
/-
  From blocks to the whole array, and through the transposes around the kernel.

  The kernel's program transposes the N×5 input to 5×N, reshapes gain, shift and bias to 5×1 columns, runs the body over
  128 column blocks of width 65536, and transposes the 5×N result back. Block `t` of the transposed input holds columns
  `t·65536 … t·65536 + 65535`, that is rows of the original input, and the body turns column `q` of the block into
  column `q` of the output block. So entry `(j, n)` of the 5×N output is the specification's output entry `j` of input row
  `n`; the blocks tile the output, and the final transpose makes it the specification's array.
-/
import proofs.«122403_j22411139350828_2_alg».proof.Proof.Gen.KernelIdeal.Frame
import proofs.«122403_j22411139350828_2_alg».proof.Proof.KernelPoint
import Idealize.ShloMosaic.Lib.Pipeline.Value
import Idealize.ShloMosaic.Lib.ValueLayout
import Idealize.ShloMosaic.Lib.StableHlo.Run
import Idealize.ShloMosaic.Lib.Tactic

noncomputable section

open scoped BigOperators

namespace Cert.KernelIdeal.Whole

open Cert.KernelIdeal Cert.KernelIdeal.Gen Cert.NormAffine
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The arrays the region finds -/

/-- The transposed input: entry `(d, n)` is the input's entry `(n, d)`. -/
theorem V_xt_apply (c : Dev nD) (d : Fin 5) (n : Fin 8388608) :
    (V m c main_v0 : S5x8388608.Idx → EReal) (ix2 d n)
      = (m ((c : Thread nD τ).loc main_arg0) : S8388608x5.Idx → EReal) (ix2 n d) := by
  have e : (V m c main_v0 : S5x8388608.Idx → EReal)
      = transpose S5x8388608 [1, 0] (m ((c : Thread nD τ).loc main_arg0)) transposes_S8388608x5_S5x8388608_1_0 := by
    show StableHlo.after hostOps0 (fun b => m (c, b)) (Proc.devRef .tc main_v0) = _
    after_results
  rw [e]
  exact transpose_ix2_apply _ _ d n

/-- The gain as a column: entry `(d, 0)` is the gain's entry `d`. -/
theorem V_gain_apply (c : Dev nD) (d : Fin 5) (u : Fin 1) :
    (V m c main_v1 : S5x1.Idx → EReal) (ix2 d u) = (m ((c : Thread nD τ).loc main_arg1) : S5.Idx → EReal) (ix1 d) := by
  have e : (V m c main_v1 : S5x1.Idx → EReal)
      = shapeCast S5x1 (m ((c : Thread nD τ).loc main_arg1) : S5.Idx → EReal) shapeCasts_S5_S5x1 := by
    show StableHlo.after hostOps0 (fun b => m (c, b)) (Proc.devRef .tc main_v1) = _
    after_results
    rfl
  rw [e]
  exact Cert.Keepdims.shapeCast_a_a1_apply _ _ d u

/-- The shift as a column. -/
theorem V_shift_apply (c : Dev nD) (d : Fin 5) (u : Fin 1) :
    (V m c main_v2 : S5x1.Idx → EReal) (ix2 d u) = (m ((c : Thread nD τ).loc main_arg2) : S5.Idx → EReal) (ix1 d) := by
  have e : (V m c main_v2 : S5x1.Idx → EReal)
      = shapeCast S5x1 (m ((c : Thread nD τ).loc main_arg2) : S5.Idx → EReal) shapeCasts_S5_S5x1 := by
    show StableHlo.after hostOps0 (fun b => m (c, b)) (Proc.devRef .tc main_v2) = _
    after_results
    rfl
  rw [e]
  exact Cert.Keepdims.shapeCast_a_a1_apply _ _ d u

/-- The bias as a column. -/
theorem V_bias_apply (c : Dev nD) (d : Fin 5) (u : Fin 1) :
    (V m c main_v3 : S5x1.Idx → EReal) (ix2 d u) = (m ((c : Thread nD τ).loc main_arg4) : S5.Idx → EReal) (ix1 d) := by
  have e : (V m c main_v3 : S5x1.Idx → EReal)
      = shapeCast S5x1 (m ((c : Thread nD τ).loc main_arg4) : S5.Idx → EReal) shapeCasts_S5_S5x1 := by
    show StableHlo.after hostOps0 (fun b => m (c, b)) (Proc.devRef .tc main_v3) = _
    after_results
    rfl
  rw [e]
  exact Cert.Keepdims.shapeCast_a_a1_apply _ _ d u

/-! ## The index maps, decided over the grid -/

/-- The input and output blocks move along the columns with the point; the columns and the weights stay put. -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = t.val :=
  (by decide +kernel : ∀ t : Fin grid0.N, _)

/-- The grid has 128 points. -/
theorem hN : cfg0.N = 128 := N_0

/-- The row of the input that column `q` of block `t` holds. -/
def rowOf (t : Fin cfg0.N) (q : Fin 65536) : Fin 8388608 :=
  ⟨t.val * 65536 + q.val, by have := t.isLt; have := q.isLt; have := hN; omega⟩

theorem rowOf_val (t : Fin cfg0.N) (q : Fin 65536) : (rowOf t q).val = t.val * 65536 + q.val := rfl

/-! ## The blocks the body is run on -/

/-- Column `q` of the input's block at point `t` is row `rowOf t q` of the input. -/
theorem iblk_x_apply (c : Dev nD) (t : Fin cfg0.N) (d : Fin 5) (q : Fin 65536) :
    (iblk m c 0 t : Vec Ideal S5x65536 .f32) (ix2 d q)
      = (m ((c : Thread nD τ).loc main_arg0) : S8388608x5.Idx → EReal) (ix2 (rowOf t q) d) := by
  obtain ⟨h0, h1, -⟩ := idx_facts t
  refine Eq.trans ?_ (V_xt_apply m c d (rowOf t q))
  unfold iblk
  rw [View.read_apply]
  refine congrArg (V m c main_v0 : S5x8388608.Idx → EReal) ?_
  funext a
  apply Fin.ext
  match a with
  | ⟨0, _⟩ => show win0_0.index t (0 : Fin 2) * 5 + 1 * d.val = d.val; rw [h0]; omega
  | ⟨1, _⟩ => show win0_0.index t (1 : Fin 2) * 65536 + 1 * q.val = t.val * 65536 + q.val; rw [h1]; omega

/-- The gain's block is the gain, at every point. -/
theorem iblk_gain_apply (c : Dev nD) (t : Fin cfg0.N) (d : Fin 5) (u : Fin 1) :
    (iblk m c 1 t : Vec Ideal S5x1 .f32) (ix2 d u) = (m ((c : Thread nD τ).loc main_arg1) : S5.Idx → EReal) (ix1 d) := by
  obtain ⟨-, -, h0, h1, -⟩ := idx_facts t
  refine Eq.trans ?_ (V_gain_apply m c d u)
  unfold iblk
  rw [View.read_apply]
  refine congrArg (V m c main_v1 : S5x1.Idx → EReal) ?_
  funext a
  apply Fin.ext
  match a with
  | ⟨0, _⟩ => show win0_1.index t (0 : Fin 2) * 5 + 1 * d.val = d.val; rw [h0]; omega
  | ⟨1, _⟩ => show win0_1.index t (1 : Fin 2) * 1 + 1 * u.val = u.val; rw [h1]; omega

/-- The shift's block is the shift. -/
theorem iblk_shift_apply (c : Dev nD) (t : Fin cfg0.N) (d : Fin 5) (u : Fin 1) :
    (iblk m c 2 t : Vec Ideal S5x1 .f32) (ix2 d u) = (m ((c : Thread nD τ).loc main_arg2) : S5.Idx → EReal) (ix1 d) := by
  obtain ⟨-, -, -, -, h0, h1, -⟩ := idx_facts t
  refine Eq.trans ?_ (V_shift_apply m c d u)
  unfold iblk
  rw [View.read_apply]
  refine congrArg (V m c main_v2 : S5x1.Idx → EReal) ?_
  funext a
  apply Fin.ext
  match a with
  | ⟨0, _⟩ => show win0_2.index t (0 : Fin 2) * 5 + 1 * d.val = d.val; rw [h0]; omega
  | ⟨1, _⟩ => show win0_2.index t (1 : Fin 2) * 1 + 1 * u.val = u.val; rw [h1]; omega

/-- The weights' block is the weights. -/
theorem iblk_w_apply (c : Dev nD) (t : Fin cfg0.N) (j k : Fin 5) :
    (iblk m c 3 t : Vec Ideal S5x5 .f32) (ix2 j k) = (m ((c : Thread nD τ).loc main_arg3) : S5x5.Idx → EReal) (ix2 j k) := by
  obtain ⟨-, -, -, -, -, -, h0, h1, -⟩ := idx_facts t
  refine Eq.trans ?_ (congrFun (V_main_arg3 m c) (ix2 j k))
  unfold iblk
  rw [View.read_apply]
  refine congrArg (V m c main_arg3 : S5x5.Idx → EReal) ?_
  funext a
  apply Fin.ext
  match a with
  | ⟨0, _⟩ => show win0_3.index t (0 : Fin 2) * 5 + 1 * j.val = j.val; rw [h0]; omega
  | ⟨1, _⟩ => show win0_3.index t (1 : Fin 2) * 5 + 1 * k.val = k.val; rw [h1]; omega

/-- The bias's block is the bias. -/
theorem iblk_bias_apply (c : Dev nD) (t : Fin cfg0.N) (d : Fin 5) (u : Fin 1) :
    (iblk m c 4 t : Vec Ideal S5x1 .f32) (ix2 d u) = (m ((c : Thread nD τ).loc main_arg4) : S5.Idx → EReal) (ix1 d) := by
  obtain ⟨-, -, -, -, -, -, -, -, h0, h1, -⟩ := idx_facts t
  refine Eq.trans ?_ (V_bias_apply m c d u)
  unfold iblk
  rw [View.read_apply]
  refine congrArg (V m c main_v3 : S5x1.Idx → EReal) ?_
  funext a
  apply Fin.ext
  match a with
  | ⟨0, _⟩ => show win0_4.index t (0 : Fin 2) * 5 + 1 * d.val = d.val; rw [h0]; omega
  | ⟨1, _⟩ => show win0_4.index t (1 : Fin 2) * 1 + 1 * u.val = u.val; rw [h1]; omega

/-! ## What each point writes back, and the whole output -/

/-- The five argument arrays' specification, written for core `c`'s launch memory. -/
abbrev spec (c : Dev nD) : S8388608x5.Idx → EReal :=
  result (m ((c : Thread nD τ).loc main_arg0)) (m ((c : Thread nD τ).loc main_arg1))
    (m ((c : Thread nD τ).loc main_arg2)) (m ((c : Thread nD τ).loc main_arg3)) (m ((c : Thread nD τ).loc main_arg4))

/-- The 5×N array the region leaves: entry `(j, n)` is the specification's entry `(n, j)`. -/
def outT (c : Dev nD) : S5x8388608.Idx → EReal := fun i => spec m c (ix2 (i 1) (i 0))

theorem outT_apply (c : Dev nD) (j : Fin 5) (n : Fin 8388608) : outT m c (ix2 j n) = spec m c (ix2 n j) := rfl

theorem hz : (![0, 0] : Fin 2 → Nat) = fun _ => 0 := funext fun a => by fin_cases a <;> rfl

/-- WHAT POINT `t` WRITES BACK is block `t` of `outT`: column `q` of the stored block is the specification of input row
    `rowOf t q`, which is where the block's column `q` sits in the array. -/
theorem flushed_eq (c : Dev nD) (t : Fin cfg0.N) (_hf : (cfg0.win 5).flush t = true) :
    (dats m 0 c).flushed 5 t = ((cfg0.win 5).blk t).view.read (Elt Ideal) (outT m c) := by
  show (cfg0.win 5).cut (grid0.coords t) ((dats m 0 c).after 5 t) = _
  rw [after0_5]
  unfold out0_5
  rw [View.canon_unit_zero hz]
  simp only [View.ld_unit_zero (S := S5x65536) hz, View.ld_unit_zero (S := S5x1) hz, View.ld_unit_zero (S := S5x5) hz]
  obtain ⟨-, -, -, -, -, -, -, -, -, -, h0, h1⟩ := idx_facts t
  funext y
  obtain ⟨j, q, rfl⟩ : ∃ (j : Fin 5) (q : Fin 65536), y = ix2 j q := ⟨y 0, y 1, eq_ix2 y⟩
  have he : ((cfg0.win 5).blk t).view.emb (ix2 j q) = (ix2 j (rowOf t q) : S5x8388608.Idx) := by
    funext a
    apply Fin.ext
    match a with
    | ⟨0, _⟩ => show win0_5.index t (0 : Fin 2) * 5 + 1 * j.val = j.val; rw [h0]; omega
    | ⟨1, _⟩ => show win0_5.index t (1 : Fin 2) * 65536 + 1 * q.val = t.val * 65536 + q.val; rw [h1]; omega
  show k0_pay1 (iblk m c 0 t) (iblk m c 1 t) (iblk m c 2 t) (iblk m c 3 t) (iblk m c 4 t) (ix2 j q)
    = outT m c (((cfg0.win 5).blk t).view.emb (ix2 j q))
  rw [he, outT_apply]
  refine (Point.pay_apply (iblk m c 0 t) (iblk m c 1 t) (iblk m c 2 t) (iblk m c 3 t) (iblk m c 4 t) j q).trans ?_
  simp only [iblk_x_apply, iblk_gain_apply, iblk_shift_apply, iblk_w_apply, iblk_bias_apply]
  rfl

/-- An index of the output array is in point `t`'s block iff each coordinate is in the block's range on its axis. -/
theorem mem_blk (t : Fin cfg0.N) (i : S5x8388608.Idx) :
    i ∈ ((cfg0.win 5).blk t).view.set ↔ ∀ a : Fin 2, win0_5.index t a * S5x65536.size a ≤ (i a).val
      ∧ (i a).val < win0_5.index t a * S5x65536.size a + S5x65536.size a := by
  show i ∈ ((View.whole main_v4).slice (win0_5.rect t)).set ↔ _
  rw [View.set_slice_whole, Rect.mem_set_unit]
  exact Iff.rfl

/-- THE OUTPUT ARRAY after the region is `outT`: column `n` lies in the block of point `n / 65536`, so the 128 blocks
    cover the array. -/
theorem final_out (c : Dev nD) : (dats m 0 c).arrAt 5 cfg0.N = outT m c :=
  (dats m 0 c).arrAt_eq_of_cover 5 (outT m c) (flushed_eq m c) fun i => by
    have hi0 : (i 0).val < 5 := (i 0).isLt
    have hi1 : (i 1).val < 8388608 := (i 1).isLt
    have hn := hN
    have htlt : (i 1).val / 65536 < cfg0.N := by omega
    obtain ⟨-, -, -, -, -, -, -, -, -, -, h0, h1⟩ := idx_facts ⟨(i 1).val / 65536, htlt⟩
    refine ⟨⟨(i 1).val / 65536, htlt⟩, flush0_5 _, ?_⟩
    rw [mem_blk]
    intro a
    match a with
    | ⟨0, _⟩ =>
      show win0_5.index ⟨(i 1).val / 65536, htlt⟩ (0 : Fin 2) * 5 ≤ (i 0).val
        ∧ (i 0).val < win0_5.index ⟨(i 1).val / 65536, htlt⟩ (0 : Fin 2) * 5 + 5
      rw [h0]; omega
    | ⟨1, _⟩ =>
      show win0_5.index ⟨(i 1).val / 65536, htlt⟩ (1 : Fin 2) * 65536 ≤ (i 1).val
        ∧ (i 1).val < win0_5.index ⟨(i 1).val / 65536, htlt⟩ (1 : Fin 2) * 65536 + 65536
      rw [h1]
      show (i 1).val / 65536 * 65536 ≤ (i 1).val ∧ (i 1).val < (i 1).val / 65536 * 65536 + 65536
      omega

/-! ## The transpose after the region -/

/-- The program's result: the region's 5×N array transposed back, which is the specification. -/
theorem tail_eq (c : Dev nD) :
    (Pipeline.afterTail₀ cfgs (dats m) 0 (V0 m) [hostOps1] c main_v5 : S8388608x5.Idx → EReal) = spec m c := by
  unfold Pipeline.afterTail₀
  show StableHlo.after hostOps1 _ (Proc.devRef .tc main_v5) = _
  after_results
  have hw : (Pipeline.withArrays (cfgs 0).spec c (V0 m c) (fun w => (dats m 0 c).arrAt w (cfgs 0).N)
      (Proc.devRef .tc main_v4) : S5x8388608.Idx → EReal) = outT m c :=
    (Pipeline.withArrays_arr spec0 launch0.win.arr_inj c _ _ 5).trans (final_out m c)
  rw [hw]
  funext i
  obtain ⟨n, j, rfl⟩ : ∃ (n : Fin 8388608) (j : Fin 5), i = ix2 n j := ⟨i 0, i 1, eq_ix2 i⟩
  rw [transpose_ix2_apply, outT_apply]

/-! ## The run, read -/

/-- Every weakly fair execution of the kernel's program terminates with its result array at the specification of the
    argument arrays, and the argument arrays unchanged: the generated frame run, with the result read through the
    transpose after the region and each argument through the frame's own lemmas. -/
theorem run : θ_run defs (onTc (τ := τ) (main (F := Ideal))) ⟨m, fun _ => 0, ρ⟩ fun r => ∀ c : Dev nD,
      r.2.mem ((c : Thread nD τ).loc main_v5) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
    ⟨((h c).2 main_v5 (Pipeline.mem_restRefs_of main_v5 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c)⟩)
    (run_main m ρ)

end Cert.KernelIdeal.Whole

end
-- ==== Proof.RefValue.lean ====
/-
  The reference's result is the specification, entry by entry.

  The reference works on the N×5 array as it is: a row's sum (from the zero word), divided by 5, is taken off every entry;
  the squares' sum divided by 5, plus ε, goes through the inverse square root; the centered entries are scaled, multiplied
  by γ, shifted by β; the row is contracted against the transposed weights, so entry `j` sums `h k · W j k`; `b j` is
  added and the result clamped at zero. Each stage is read at explicit coordinates `(n, d)`; the only arithmetic is that
  a sum started from the zero word is the sum.
-/
import proofs.«122403_j22411139350828_2_alg».proof.Proof.Gen.ReferenceIdeal.Read
import proofs.«122403_j22411139350828_2_alg».proof.Proof.Spec

noncomputable section

open scoped BigOperators

namespace Cert.ReferenceIdeal.RefValue

open Cert.ReferenceIdeal Cert.ReferenceIdeal.Read Cert.NormAffine
open Idealize.ShloMosaic Idealize.ShloMosaic.ValueIdx

variable (x0 : (⟨S8388608x5, .f32⟩ : BufTy).Contents (Elt Ideal)) (x1 x2 : (⟨S5, .f32⟩ : BufTy).Contents (Elt Ideal))
  (x3 : (⟨S5x5, .f32⟩ : BufTy).Contents (Elt Ideal)) (x4 : (⟨S5, .f32⟩ : BufTy).Contents (Elt Ideal))

/-- Row `n` of the input. -/
abbrev row (n : Fin 8388608) : Fin 5 → EReal := fun d => x0 (ix2 n d)

/-- The zero word is the real zero. -/
theorem zero_word : (Ideal.ofBits .f32 0x00000000#32 : EReal) = 0 := Ideal.ofBits_zero_f32

/-! ## The stages' index maps at coordinates

Each stage reads its operand at an index computed from the result's; at an index written by its coordinates these are
again indices written by coordinates. -/

section Indices

local macro "coords2" : tactic =>
  `(tactic| (funext a; apply Fin.ext; match a with | ⟨0, _⟩ => rfl | ⟨1, _⟩ => rfl))
local macro "coords1" : tactic =>
  `(tactic| (funext a; apply Fin.ext; match a with | ⟨0, _⟩ => rfl))

/-- Entry `k` of the row a column entry `(n, u)` sums over is `(n, k)` (the first sum), -/
theorem sumIdx (n : Fin 8388608) (u : Fin 1) (k : Fin 5) : idx_main_v0 (idx_main_v1 (ix2 n u)) k = ix2 n k := by coords2
/-- and likewise for the sum of squares. -/
theorem sqSumIdx (n : Fin 8388608) (u : Fin 1) (k : Fin 5) : idx_main_v7 (idx_main_v8 (ix2 n u)) k = ix2 n k := by coords2
/-- A column laid over the five entries of a row is read at the row's one column entry (three uses). -/
theorem colIdx4 (n : Fin 8388608) (d : Fin 5) : idx_main_v4 (ix2 n d) = ix2 n (0 : Fin 1) := by coords2
theorem colIdx11 (n : Fin 8388608) (d : Fin 5) : idx_main_v11 (ix2 n d) = ix2 n (0 : Fin 1) := by coords2
theorem colIdx16 (n : Fin 8388608) (d : Fin 5) : idx_main_v16 (ix2 n d) = ix2 n (0 : Fin 1) := by coords2
/-- A length-5 vector laid over the rows is read at the entry's feature (gain, shift, bias). -/
theorem featIdx19 (n : Fin 8388608) (d : Fin 5) : idx_main_v18 (idx_main_v19 (ix2 n d)) = ix1 d := by coords1
theorem featIdx22 (n : Fin 8388608) (d : Fin 5) : idx_main_v21 (idx_main_v22 (ix2 n d)) = ix1 d := by coords1
theorem featIdx27 (n : Fin 8388608) (d : Fin 5) : idx_main_v26 (idx_main_v27 (ix2 n d)) = ix1 d := by coords1
/-- The contraction at entry `(n, j)`, position `k`: the left operand at `(n, k)`, the transposed weights at `(k, j)`, -/
theorem lhsIdx (n : Fin 8388608) (j k : Fin 5) : lidx_main_v25 (ix2 n j) k = ix2 n k := by coords2
theorem rhsIdx (n : Fin 8388608) (j k : Fin 5) : ridx_main_v25 (ix2 n j) k = ix2 k j := by coords2
/-- which is the weights at `(j, k)`. -/
theorem transIdx (k j : Fin 5) : idx_main_v24 (ix2 k j) = ix2 j k := by coords2

end Indices

/-- The row sums divided by 5: the mean of row `n`, kept as a column. -/
theorem mean_apply (n : Fin 8388608) (u : Fin 1) : val_main_v3 (F := Ideal) x0 (ix2 n u) = mean (row x0 n) := by
  rw [val_main_v3_apply, val_main_v1_apply, val_main_v0_apply, val_main_v2_apply, val_main_cst_0_apply,
    val_main_cst_apply]
  simp only [sumIdx]
  show Ideal.div (Ideal.ofBits .f32 0x00000000#32 + ∑ k : Fin 5, x0 (ix2 n k)) five = _
  rw [zero_word, zero_add]
  rfl

/-- The entries with the row mean taken off (first use: under the square). -/
theorem centered_apply (n : Fin 8388608) (d : Fin 5) :
    val_main_v5 (F := Ideal) x0 (ix2 n d) = centered (row x0 n) d := by
  rw [val_main_v5_apply, val_main_v4_apply, colIdx4, mean_apply]
  rfl

/-- The same centered entries, as the reference recomputes them for the product with the scale. -/
theorem centered_apply' (n : Fin 8388608) (d : Fin 5) :
    val_main_v12 (F := Ideal) x0 (ix2 n d) = centered (row x0 n) d := by
  rw [val_main_v12_apply, val_main_v11_apply, colIdx11, mean_apply]
  rfl

/-- The inverse square root of the variance plus ε, kept as a column. -/
theorem scale_apply (n : Fin 8388608) (u : Fin 1) : val_main_v15 (F := Ideal) x0 (ix2 n u) = scale (row x0 n) := by
  rw [val_main_v15_apply, val_main_v14_apply, val_main_v10_apply, val_main_v8_apply, val_main_v7_apply,
    val_main_v9_apply, val_main_v13_apply, val_main_cst_1_apply, val_main_cst_2_apply, val_main_cst_3_apply]
  simp only [sqSumIdx, val_main_v6_apply, centered_apply]
  show Ideal.rsqrt (Ideal.div (Ideal.ofBits .f32 0x00000000#32
      + ∑ k : Fin 5, centered (row x0 n) k * centered (row x0 n) k) five + eps) = _
  rw [zero_word, zero_add]
  rfl

/-- The normalized entries with gain and shift. -/
theorem normed_apply (n : Fin 8388608) (d : Fin 5) :
    val_main_v23 (F := Ideal) x0 x1 x2 (ix2 n d)
      = normed (row x0 n) (fun d => x1 (ix1 d)) (fun d => x2 (ix1 d)) d := by
  rw [val_main_v23_apply, val_main_v20_apply, val_main_v17_apply, val_main_v16_apply, val_main_v19_apply,
    val_main_v18_apply, val_main_v22_apply, val_main_v21_apply, centered_apply', colIdx16, scale_apply,
    featIdx19, featIdx22]
  rfl

/-- THE REFERENCE IS THE SPECIFICATION: its result array is `result` of the five argument arrays. -/
theorem ref_eq : val_main_v29 (F := Ideal) x0 x1 x2 x3 x4 = result x0 x1 x2 x3 x4 := by
  funext i
  obtain ⟨n, j, rfl⟩ : ∃ (n : Fin 8388608) (j : Fin 5), i = ix2 n j := ⟨i 0, i 1, eq_ix2 i⟩
  rw [result_apply, val_main_v29_apply, val_main_v28_apply, val_main_v25_apply, val_main_v27_apply,
    val_main_v26_apply, val_main_call0_v0_apply, val_main_call0_cst_apply, featIdx27]
  simp only [lhsIdx, rhsIdx, normed_apply, val_main_v24_apply, transIdx]
  rfl

end Cert.ReferenceIdeal.RefValue

end
-- ==== Proof.lean ====
/-
  Row-wise layer normalization over five features, a 5×5 affine map and a clamp at zero: the kernel against its reference.

  Both programs compute, for every row r of the N×5 input, max (Σ_k h k · W j k + b j, 0) with
  h k = (r k − mean r) · (var r + ε)^(−1/2) · γ k + β k, mean and var the row's mean and biased variance (sums divided
  by the float 5). The kernel does it on the transposed input, 65536 rows at a time as columns of a 5×65536 block, sums
  over the block's five rows, multiplies the weights onto the block from the left, and transposes the result back; the
  reference sums along each row and contracts the normalized row with the transposed weights. On the extended reals the
  two differ only in the order of the factors inside the contraction, which multiplication's commutativity absorbs; no
  entry needs to be finite for that, so the precondition is never opened. The narrowing to bf16 before the kernel's
  product is the identity at the ideal instance, and the ideal pass rewrote nothing, so the idealization claim is trivial.

  Spec.lean states the common function; KernelPoint.lean reads the kernel's stored block at an entry; KernelArray.lean
  goes from blocks to the array and through the two transposes; RefValue.lean reads the reference's stages; here the
  three frames and the two claims are assembled.
-/
import proofs.«122403_j22411139350828_2_alg».proof.Defs
import proofs.«122403_j22411139350828_2_alg».proof.Proof.Gen.Kernel
import proofs.«122403_j22411139350828_2_alg».proof.Proof.Gen.Kernel.Skeleton
import proofs.«122403_j22411139350828_2_alg».proof.Proof.Gen.Kernel.Launch
import proofs.«122403_j22411139350828_2_alg».proof.Proof.Gen.Kernel.Points
import proofs.«122403_j22411139350828_2_alg».proof.Proof.Gen.Kernel.Frame
import proofs.«122403_j22411139350828_2_alg».proof.Proof.Gen.KernelIdeal
import proofs.«122403_j22411139350828_2_alg».proof.Proof.Gen.KernelIdeal.Skeleton
import proofs.«122403_j22411139350828_2_alg».proof.Proof.Gen.KernelIdeal.Launch
import proofs.«122403_j22411139350828_2_alg».proof.Proof.Gen.KernelIdeal.Points
import proofs.«122403_j22411139350828_2_alg».proof.Proof.Gen.KernelIdeal.Frame
import proofs.«122403_j22411139350828_2_alg».proof.Proof.Gen.ReferenceIdeal
import proofs.«122403_j22411139350828_2_alg».proof.Proof.Gen.Pre_finite_inputs
import proofs.«122403_j22411139350828_2_alg».proof.Proof.Gen.ReferenceIdeal.Run
import proofs.«122403_j22411139350828_2_alg».proof.Proof.Gen.ReferenceIdeal.Read
import proofs.«122403_j22411139350828_2_alg».proof.Proof.KernelArray
import proofs.«122403_j22411139350828_2_alg».proof.Proof.RefValue
import Idealize.ShloMosaic.Adequacy
import Idealize.ShloMosaic.Init

noncomputable section

namespace Cert.Proof

open Idealize.ShloMosaic Idealize.SL.Sem

/-- The kernel's program, as printed, runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments unchanged: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation: nothing to preserve. -/
theorem preserves : Cert.preserves_Kernel_KernelIdeal := trivial

/-- From memories agreeing on the five arguments, both programs end with their result arrays at the specification
    of those arguments. -/
theorem algebraic : Cert.algebraic_KernelIdeal_ReferenceIdeal := by
  intro m ρ m' ρ' _ hagree
  refine ⟨fun c => Cert.KernelIdeal.Whole.spec m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, Cert.ReferenceIdeal.RefValue.ref_eq, (hagree c).1, (hagree c).2.1,
    (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
